-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x17 : Shape := ⟨2, ![512, 17]⟩
abbrev S17 : Shape := ⟨1, ![17]⟩
abbrev S512x12 : Shape := ⟨2, ![512, 12]⟩
abbrev S12 : Shape := ⟨1, ![12]⟩
abbrev S512x6 : Shape := ⟨2, ![512, 6]⟩
abbrev S6 : Shape := ⟨1, ![6]⟩
abbrev S512x8 : Shape := ⟨2, ![512, 8]⟩
abbrev S8 : Shape := ⟨1, ![8]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x17 : S_.BroadcastsInDim S512x17 (![] : Fin 0 → Fin S512x17.rank)
  reducesTo_S512x17_S_d0_1 : S512x17.ReducesTo [0, 1] S_
  bcast_S_S17 : S_.BroadcastsInDim S17 (![] : Fin 0 → Fin S17.rank)
  reducesTo_S17_S_d0 : S17.ReducesTo [0] S_
  bcast_S_S512x12 : S_.BroadcastsInDim S512x12 (![] : Fin 0 → Fin S512x12.rank)
  reducesTo_S512x12_S_d0_1 : S512x12.ReducesTo [0, 1] S_
  bcast_S_S12 : S_.BroadcastsInDim S12 (![] : Fin 0 → Fin S12.rank)
  reducesTo_S12_S_d0 : S12.ReducesTo [0] S_
  bcast_S_S512x6 : S_.BroadcastsInDim S512x6 (![] : Fin 0 → Fin S512x6.rank)
  reducesTo_S512x6_S_d0_1 : S512x6.ReducesTo [0, 1] S_
  bcast_S_S6 : S_.BroadcastsInDim S6 (![] : Fin 0 → Fin S6.rank)
  reducesTo_S6_S_d0 : S6.ReducesTo [0] S_
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg7 : FVec F S512x8 .f32) (main_arg8 : FVec F S8 .f32) (main_v33 : IVec S_ 1) : IVec S_ 1 :=
  let main_v34 : FVec F S512x8 .f32 := Host.absf main_arg7
  let main_cst_12 : FVec F S_ .f32 := constant S_ .f32 0x7F800000#32
  let main_v35 : FVec F S512x8 .f32 := broadcastInDim S512x8 ![] bcast_S_S512x8 main_cst_12
  let main_v36 : IVec S512x8 1 := cmpf .olt main_v34 main_v35
  let main_c_13 : IVec S_ 1 := constantI S_ 1 1#1
  let main_v37 : IVec S_ 1 := (fun x v => Host.reduce IntOp.andi x v reducesTo_S512x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg4 : FVec F S12 .f32) (main_arg5 : FVec F S512x6 .f32) (main_arg6 : FVec F S6 .f32) (main_arg7 : FVec F S512x8 .f32) (main_arg8 : FVec F S8 .f32) (main_v13 : IVec S_ 1) (main_v16 : IVec S512x12 1) : IVec S_ 1 :=
  let main_c_5 : IVec S_ 1 := constantI S_ 1 1#1
  let main_v17 : IVec S_ 1 := (fun x v => Host.reduce IntOp.andi x v reducesTo_S512x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S512x6 .f32 := Host.absf main_arg5
  let main_cst_8 : FVec F S_ .f32 := constant S_ .f32 0x7F800000#32
  let main_v25 : FVec F S512x6 .f32 := broadcastInDim S512x6 ![] bcast_S_S512x6 main_cst_8
  let main_v26 : IVec S512x6 1 := cmpf .olt main_v24 main_v25
  let main_c_9 : IVec S_ 1 := constantI S_ 1 1#1
  let main_v27 : IVec S_ 1 := (fun x v => Host.reduce IntOp.andi x v reducesTo_S512x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg7 main_arg8 main_v33

def fn {F : FTy → Type} [FloatOps F] (main_arg0 : FVec F S131072x512 .f32) (main_arg1 : FVec F S512x17 .f32) (main_arg2 : FVec F S17 .f32) (main_arg3 : FVec F S512x12 .f32) (main_arg4 : FVec F S12 .f32) (main_arg5 : FVec F S512x6 .f32) (main_arg6 : FVec F S6 .f32) (main_arg7 : FVec F S512x8 .f32) (main_arg8 : FVec F S8 .f32) (main_arg9 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x17 .f32 := Host.absf main_arg1
  let main_cst_0 : FVec F S_ .f32 := constant S_ .f32 0x7F800000#32
  let main_v5 : FVec F S512x17 .f32 := broadcastInDim S512x17 ![] bcast_S_S512x17 main_cst_0
  let main_v6 : IVec S512x17 1 := cmpf .olt main_v4 main_v5
  let main_c_1 : IVec S_ 1 := constantI S_ 1 1#1
  let main_v7 : IVec S_ 1 := (fun x v => Host.reduce IntOp.andi x v reducesTo_S512x17_S_d0_1 h_S_) main_v6 main_c_1
  let main_v8 : IVec S_ 1 := andi main_v3 main_v7
  let main_v9 : FVec F S17 .f32 := Host.absf main_arg2
  let main_cst_2 : FVec F S_ .f32 := constant S_ .f32 0x7F800000#32
  let main_v10 : FVec F S17 .f32 := broadcastInDim S17 ![] bcast_S_S17 main_cst_2
  let main_v11 : IVec S17 1 := cmpf .olt main_v9 main_v10
  let main_c_3 : IVec S_ 1 := constantI S_ 1 1#1
  let main_v12 : IVec S_ 1 := (fun x v => Host.reduce IntOp.andi x v reducesTo_S17_S_d0 h_S_) main_v11 main_c_3
  let main_v13 : IVec S_ 1 := andi main_v8 main_v12
  let main_v14 : FVec F S512x12 .f32 := Host.absf main_arg3
  let main_cst_4 : FVec F S_ .f32 := constant S_ .f32 0x7F800000#32
  let main_v15 : FVec F S512x12 .f32 := broadcastInDim S512x12 ![] bcast_S_S512x12 main_cst_4
  let main_v16 : IVec S512x12 1 := cmpf .olt main_v14 main_v15
  fn_part1 (F := F) main_arg4 main_arg5 main_arg6 main_arg7 main_arg8 main_v13 main_v16
-- ==== Kernel.lean ====
abbrev S131072x512 : Shape := ⟨2, ![131072, 512]⟩
abbrev S512x17 : Shape := ⟨2, ![512, 17]⟩
abbrev S17 : Shape := ⟨1, ![17]⟩
abbrev S512x12 : Shape := ⟨2, ![512, 12]⟩
abbrev S12 : Shape := ⟨1, ![12]⟩
abbrev S512x6 : Shape := ⟨2, ![512, 6]⟩
abbrev S6 : Shape := ⟨1, ![6]⟩
abbrev S512x8 : Shape := ⟨2, ![512, 8]⟩
abbrev S8 : Shape := ⟨1, ![8]⟩
abbrev S131072 : Shape := ⟨1, ![131072]⟩
abbrev S1x128 : Shape := ⟨2, ![1, 128]⟩
abbrev S512x43 : Shape := ⟨2, ![512, 43]⟩
abbrev S_ : Shape := ⟨0, ![]⟩
abbrev S512x128 : Shape := ⟨2, ![512, 128]⟩
abbrev S43 : Shape := ⟨1, ![43]⟩
abbrev S1x43 : Shape := ⟨2, ![1, 43]⟩
abbrev S131072x1 : Shape := ⟨2, ![131072, 1]⟩
abbrev S131072x43 : Shape := ⟨2, ![131072, 43]⟩
abbrev S4096x512 : Shape := ⟨2, ![4096, 512]⟩
abbrev S4096x1 : Shape := ⟨2, ![4096, 1]⟩
abbrev S4096x43 : Shape := ⟨2, ![4096, 43]⟩
abbrev S4096x128 : Shape := ⟨2, ![4096, 128]⟩

abbrev nBuf : Space → Nat
  | .hbm => 22
  | .vmem => 9
  | .smem => 0
  | _ => 0

abbrev bufTy : (tb : Table) → Fin (tcTables nBuf tb) → BufTy
  | .hbm, ⟨0, _⟩ => ⟨S131072x512, .f32⟩
  | .hbm, ⟨1, _⟩ => ⟨S512x17, .f32⟩
  | .hbm, ⟨2, _⟩ => ⟨S17, .f32⟩
  | .hbm, ⟨3, _⟩ => ⟨S512x12, .f32⟩
  | .hbm, ⟨4, _⟩ => ⟨S12, .f32⟩
  | .hbm, ⟨5, _⟩ => ⟨S512x6, .f32⟩
  | .hbm, ⟨6, _⟩ => ⟨S6, .f32⟩
  | .hbm, ⟨7, _⟩ => ⟨S512x8, .f32⟩
  | .hbm, ⟨8, _⟩ => ⟨S8, .f32⟩
  | .hbm, ⟨9, _⟩ => ⟨S131072, .i32⟩
  | .hbm, ⟨10, _⟩ => ⟨S1x128, .i32⟩
  | .hbm, ⟨11, _⟩ => ⟨S512x43, .f32⟩
  | .hbm, ⟨12, _⟩ => ⟨S_, .i32⟩
  | .hbm, ⟨13, _⟩ => ⟨S_, .f32⟩
  | .hbm, ⟨14, _⟩ => ⟨S512x128, .f32⟩
  | .hbm, ⟨15, _⟩ => ⟨S43, .f32⟩
  | .hbm, ⟨16, _⟩ => ⟨S1x43, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S131072x1, .i32⟩
  | .hbm, ⟨21, _⟩ => ⟨S131072x43, .f32⟩
  | .local _ .vmem, ⟨0, _⟩ => ⟨S4096x512, .f32⟩
  | .local _ .vmem, ⟨1, _⟩ => ⟨S4096x512, .f32⟩
  | .local _ .vmem, ⟨2, _⟩ => ⟨S512x128, .f32⟩
  | .local _ .vmem, ⟨3, _⟩ => ⟨S1x128, .f32⟩
  | .local _ .vmem, ⟨4, _⟩ => ⟨S1x128, .i32⟩
  | .local _ .vmem, ⟨5, _⟩ => ⟨S4096x1, .i32⟩
  | .local _ .vmem, ⟨6, _⟩ => ⟨S4096x1, .i32⟩
  | .local _ .vmem, ⟨7, _⟩ => ⟨S4096x43, .f32⟩
  | .local _ .vmem, ⟨8, _⟩ => ⟨S4096x43, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_c_0 : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x43 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S512x17_S512x12_S512x6_S512x8_S512x43_d1 : Shape.Concatenates [S512x17, S512x12, S512x6, S512x8] S512x43 1
  pads_S512x43_S512x128_000_0850 : S512x43.Pads (![0, 0] : Fin 2 → Nat) ![0, 85] ![0, 0] S512x128
  h_S_ : 0 < S_.numel
  concatenates_S17_S12_S6_S8_S43_d0 : Shape.Concatenates [S17, S12, S6, S8] S43 0
  shapeCasts_S43_S1x43 : S43.ShapeCasts S1x43
  pads_S1x43_S1x128_000_0850 : S1x43.Pads (![0, 0] : Fin 2 → Nat) ![0, 85] ![0, 0] S1x128
  shapeCasts_S131072_S131072x1 : S131072.ShapeCasts S131072x1
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  slices_S4096x128_o0_0_S4096x43 : S4096x128.Slices ![0, 0] S4096x43
  inb_S4096x43_S4096x43_0_0 : ∀ a, (![0, 0] : Fin 2 → Nat) a + S4096x43.size a ≤ S4096x43.size a
  h_S4096x43 : 0 < S4096x43.numel
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .i32 = 32 ∨ (Rect.block (s := S1x128) S1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S131072x1.size a
  hwx0_4 : ∀ i : grid0.Coords, EltTy.bits .i32 = 32 ∨ (Rect.block (s := S131072x1) S4096x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x43.size a ≤ S131072x43.size a
  hwx0_5 : ∀ i : grid0.Coords, EltTy.bits .f32 = 32 ∨ (Rect.block (s := S131072x43) S4096x43.size (cc0_transform_5 i) (hinb0_5 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_c) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4096x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096x43.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x17 : Shape := ⟨2, ![512, 17]⟩
abbrev S17 : Shape := ⟨1, ![17]⟩
abbrev S512x12 : Shape := ⟨2, ![512, 12]⟩
abbrev S12 : Shape := ⟨1, ![12]⟩
abbrev S512x6 : Shape := ⟨2, ![512, 6]⟩
abbrev S6 : Shape := ⟨1, ![6]⟩
abbrev S512x8 : Shape := ⟨2, ![512, 8]⟩
abbrev S8 : Shape := ⟨1, ![8]⟩
abbrev S131072 : Shape := ⟨1, ![131072]⟩
abbrev S_ : Shape := ⟨0, ![]⟩
abbrev S131072x1 : Shape := ⟨2, ![131072, 1]⟩
abbrev S131072x17 : Shape := ⟨2, ![131072, 17]⟩
abbrev S1x17 : Shape := ⟨2, ![1, 17]⟩
abbrev S131072x12 : Shape := ⟨2, ![131072, 12]⟩
abbrev S1x12 : Shape := ⟨2, ![1, 12]⟩
abbrev S131072x6 : Shape := ⟨2, ![131072, 6]⟩
abbrev S1x6 : Shape := ⟨2, ![1, 6]⟩
abbrev S131072x8 : Shape := ⟨2, ![131072, 8]⟩
abbrev S1x8 : Shape := ⟨2, ![1, 8]⟩
abbrev S131072x43 : Shape := ⟨2, ![131072, 43]⟩

abbrev nBuf : Space → Nat
  | .hbm => 63
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x17, .f32⟩
  | .hbm, ⟨2, _⟩ => ⟨S17, .f32⟩
  | .hbm, ⟨3, _⟩ => ⟨S512x12, .f32⟩
  | .hbm, ⟨4, _⟩ => ⟨S12, .f32⟩
  | .hbm, ⟨5, _⟩ => ⟨S512x6, .f32⟩
  | .hbm, ⟨6, _⟩ => ⟨S6, .f32⟩
  | .hbm, ⟨7, _⟩ => ⟨S512x8, .f32⟩
  | .hbm, ⟨8, _⟩ => ⟨S8, .f32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S131072x1, .i1⟩
  | .hbm, ⟨14, _⟩ => ⟨S131072x17, .f32⟩
  | .hbm, ⟨15, _⟩ => ⟨S1x17, .f32⟩
  | .hbm, ⟨16, _⟩ => ⟨S131072x17, .f32⟩
  | .hbm, ⟨17, _⟩ => ⟨S131072x17, .f32⟩
  | .hbm, ⟨18, _⟩ => ⟨S_, .f32⟩
  | .hbm, ⟨19, _⟩ => ⟨S_, .f32⟩
  | .hbm, ⟨20, _⟩ => ⟨S131072x17, .i1⟩
  | .hbm, ⟨21, _⟩ => ⟨S131072x17, .f32⟩
  | .hbm, ⟨22, _⟩ => ⟨S131072x17, .f32⟩
  | .hbm, ⟨23, _⟩ => ⟨S_, .i32⟩
  | .hbm, ⟨24, _⟩ => ⟨S131072, .i32⟩
  | .hbm, ⟨25, _⟩ => ⟨S131072, .i1⟩
  | .hbm, ⟨26, _⟩ => ⟨S131072x1, .i1⟩
  | .hbm, ⟨27, _⟩ => ⟨S131072x12, .f32⟩
  | .hbm, ⟨28, _⟩ => ⟨S1x12, .f32⟩
  | .hbm, ⟨29, _⟩ => ⟨S131072x12, .f32⟩
  | .hbm, ⟨30, _⟩ => ⟨S131072x12, .f32⟩
  | .hbm, ⟨31, _⟩ => ⟨S_, .f32⟩
  | .hbm, ⟨32, _⟩ => ⟨S_, .f32⟩
  | .hbm, ⟨33, _⟩ => ⟨S131072x12, .i1⟩
  | .hbm, ⟨34, _⟩ => ⟨S131072x12, .f32⟩
  | .hbm, ⟨35, _⟩ => ⟨S131072x12, .f32⟩
  | .hbm, ⟨36, _⟩ => ⟨S_, .i32⟩
  | .hbm, ⟨37, _⟩ => ⟨S131072, .i32⟩
  | .hbm, ⟨38, _⟩ => ⟨S131072, .i1⟩
  | .hbm, ⟨39, _⟩ => ⟨S131072x1, .i1⟩
  | .hbm, ⟨40, _⟩ => ⟨S131072x6, .f32⟩
  | .hbm, ⟨41, _⟩ => ⟨S1x6, .f32⟩
  | .hbm, ⟨42, _⟩ => ⟨S131072x6, .f32⟩
  | .hbm, ⟨43, _⟩ => ⟨S131072x6, .f32⟩
  | .hbm, ⟨44, _⟩ => ⟨S_, .f32⟩
  | .hbm, ⟨45, _⟩ => ⟨S_, .f32⟩
  | .hbm, ⟨46, _⟩ => ⟨S131072x6, .i1⟩
  | .hbm, ⟨47, _⟩ => ⟨S131072x6, .f32⟩
  | .hbm, ⟨48, _⟩ => ⟨S131072x6, .f32⟩
  | .hbm, ⟨49, _⟩ => ⟨S_, .i32⟩
  | .hbm, ⟨50, _⟩ => ⟨S131072, .i32⟩
  | .hbm, ⟨51, _⟩ => ⟨S131072, .i1⟩
  | .hbm, ⟨52, _⟩ => ⟨S131072x1, .i1⟩
  | .hbm, ⟨53, _⟩ => ⟨S131072x8, .f32⟩
  | .hbm, ⟨54, _⟩ => ⟨S1x8, .f32⟩
  | .hbm, ⟨55, _⟩ => ⟨S131072x8, .f32⟩
  | .hbm, ⟨56, _⟩ => ⟨S131072x8, .f32⟩
  | .hbm, ⟨57, _⟩ => ⟨S_, .f32⟩
  | .hbm, ⟨58, _⟩ => ⟨S_, .f32⟩
  | .hbm, ⟨59, _⟩ => ⟨S131072x8, .i1⟩
  | .hbm, ⟨60, _⟩ => ⟨S131072x8, .f32⟩
  | .hbm, ⟨61, _⟩ => ⟨S131072x8, .f32⟩
  | .hbm, ⟨62, _⟩ => ⟨S131072x43, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v31 : Ref sig .tc := ⟨.hbm, 61, rfl⟩
abbrev main_v32 : Ref sig .tc := ⟨.hbm, 62, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S17_S1x17_1 : S17.BroadcastsInDim S1x17 (![1] : Fin 1 → Fin S1x17.rank)
  bcast_S1x17_S131072x17_0_1 : S1x17.BroadcastsInDim S131072x17 (![0, 1] : Fin 2 → Fin S131072x17.rank)
  bcast_S131072x1_S131072x17_0_1 : S131072x1.BroadcastsInDim S131072x17 (![0, 1] : Fin 2 → Fin S131072x17.rank)
  bcast_S_S131072x17 : S_.BroadcastsInDim S131072x17 (![] : Fin 0 → Fin S131072x17.rank)
  bcast_S12_S1x12_1 : S12.BroadcastsInDim S1x12 (![1] : Fin 1 → Fin S1x12.rank)
  bcast_S1x12_S131072x12_0_1 : S1x12.BroadcastsInDim S131072x12 (![0, 1] : Fin 2 → Fin S131072x12.rank)
  bcast_S131072x1_S131072x12_0_1 : S131072x1.BroadcastsInDim S131072x12 (![0, 1] : Fin 2 → Fin S131072x12.rank)
  bcast_S_S131072x12 : S_.BroadcastsInDim S131072x12 (![] : Fin 0 → Fin S131072x12.rank)
  bcast_S6_S1x6_1 : S6.BroadcastsInDim S1x6 (![1] : Fin 1 → Fin S1x6.rank)
  bcast_S1x6_S131072x6_0_1 : S1x6.BroadcastsInDim S131072x6 (![0, 1] : Fin 2 → Fin S131072x6.rank)
  bcast_S131072x1_S131072x6_0_1 : S131072x1.BroadcastsInDim S131072x6 (![0, 1] : Fin 2 → Fin S131072x6.rank)
  bcast_S_S131072x6 : S_.BroadcastsInDim S131072x6 (![] : Fin 0 → Fin S131072x6.rank)
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  bcast_S131072x1_S131072x8_0_1 : S131072x1.BroadcastsInDim S131072x8 (![0, 1] : Fin 2 → Fin S131072x8.rank)
  bcast_S_S131072x8 : S_.BroadcastsInDim S131072x8 (![] : Fin 0 → Fin S131072x8.rank)
  concatenates_S131072x17_S131072x12_S131072x6_S131072x8_S131072x43_d1 : Shape.Concatenates [S131072x17, S131072x12, S131072x6, S131072x8] S131072x43 1
  dot_S131072x512_S512x17_S131072x17_1_0_0_1_n_n_wf : DotDims.WF S131072x512 S512x17 S131072x17 [1] [0] [0] [1] [] []
  dot_S131072x512_S512x12_S131072x12_1_0_0_1_n_n_wf : DotDims.WF S131072x512 S512x12 S131072x12 [1] [0] [0] [1] [] []
  dot_S131072x512_S512x6_S131072x6_1_0_0_1_n_n_wf : DotDims.WF S131072x512 S512x6 S131072x6 [1] [0] [0] [1] [] []
  dot_S131072x512_S512x8_S131072x8_1_0_0_1_n_n_wf : DotDims.WF S131072x512 S512x8 S131072x8 [1] [0] [0] [1] [] []

variable [Facts₀]

def dot_S131072x512_S512x17_S131072x17_1_0_0_1_n_n : DotDims S131072x512 S512x17 S131072x17 where
  lhsContracting := [1]
  rhsContracting := [0]
  lhsNonContracting := [0]
  rhsNonContracting := [1]
  lhsBatch := []
  rhsBatch := []
  wf := dot_S131072x512_S512x17_S131072x17_1_0_0_1_n_n_wf
def dot_S131072x512_S512x12_S131072x12_1_0_0_1_n_n : DotDims S131072x512 S512x12 S131072x12 where
  lhsContracting := [1]
  rhsContracting := [0]
  lhsNonContracting := [0]
  rhsNonContracting := [1]
  lhsBatch := []
  rhsBatch := []
  wf := dot_S131072x512_S512x12_S131072x12_1_0_0_1_n_n_wf
def dot_S131072x512_S512x6_S131072x6_1_0_0_1_n_n : DotDims S131072x512 S512x6 S131072x6 where
  lhsContracting := [1]
  rhsContracting := [0]
  lhsNonContracting := [0]
  rhsNonContracting := [1]
  lhsBatch := []
  rhsBatch := []
  wf := dot_S131072x512_S512x6_S131072x6_1_0_0_1_n_n_wf
def dot_S131072x512_S512x8_S131072x8_1_0_0_1_n_n : DotDims S131072x512 S512x8 S131072x8 where
  lhsContracting := [1]
  rhsContracting := [0]
  lhsNonContracting := [0]
  rhsNonContracting := [1]
  lhsBatch := []
  rhsBatch := []
  wf := dot_S131072x512_S512x8_S131072x8_1_0_0_1_n_n_wf

class Facts : Prop extends Facts₀ where

variable [Facts]
-- ==== Proof.KernelFrame.lean ====
/-
  The frame of `Kernel`: the program terminates without a fault and leaves its ten argument arrays as it found them.

  @main first builds, by host operations, the four arrays the kernel reads beside `x`: the 512×128 matrix of the four
  heads' weights side by side padded with zero columns, the 1×128 row of their biases padded with zeros, the 1×128 row
  giving each column its head's number (−1 on the padding), and the labels as a 131072×1 column. None of these operations
  writes an argument. The one region then visits 32 grid points; at point `t` it is handed rows 4096·t … 4096·t+4095 of
  `x` and of the label column and the three small arrays whole, and it stores ONE 4096×43 block that covers its output
  buffer. So what the output buffer holds after the body is a function (`blockOut`) of the five input blocks alone, the
  body's loads return exactly those blocks, and the launch theorem for kernels that keep nothing between points gives the
  run: every array of the pipeline ends at what the write-backs left, every other buffer as the region found it.
-/
import proofs.«176729_j18090402250892_2_alg».proof.Proof.Gen.Kernel.Launch
import proofs.«176729_j18090402250892_2_alg».proof.Proof.Gen.Kernel.Skeleton
import proofs.«176729_j18090402250892_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the thirteen host operations
    (the class table, the concatenated and padded weights, the concatenated, reshaped and padded biases, the labels as
    a column). -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is its five stretches of host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer none of the host operations writes is found by the region as launched. Each operation writes only its own
    result buffer, and no result buffer is an argument. -/
local macro "host_keeps" : tactic => `(tactic| (
  refine List.forall_iff_forall_mem.mp ?_
  simp only [hostOps0, hostOps0_1, hostOps0_2, hostOps0_3, hostOps0_4, List.flatten_cons, List.flatten_nil, List.append_nil, List.cons_append,
    List.nil_append, List.Forall, StableHlo.TRef.unary, StableHlo.TRef.binary, StableHlo.nullary_writes, StableHlo.unary_writes, StableHlo.binary_writes,
    StableHlo.nary_writes, StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (by host_keeps)
theorem V_main_arg1 (c : Dev nD) : V m c main_arg1 = m ((c : Thread nD τ).loc main_arg1) :=
  StableHlo.after_of_forall_not_mem (b := Proc.devRef .tc main_arg1) _ _ (by host_keeps)
theorem V_main_arg2 (c : Dev nD) : V m c main_arg2 = m ((c : Thread nD τ).loc main_arg2) :=
  StableHlo.after_of_forall_not_mem (b := Proc.devRef .tc main_arg2) _ _ (by host_keeps)
theorem V_main_arg3 (c : Dev nD) : V m c main_arg3 = m ((c : Thread nD τ).loc main_arg3) :=
  StableHlo.after_of_forall_not_mem (b := Proc.devRef .tc main_arg3) _ _ (by host_keeps)
theorem V_main_arg4 (c : Dev nD) : V m c main_arg4 = m ((c : Thread nD τ).loc main_arg4) :=
  StableHlo.after_of_forall_not_mem (b := Proc.devRef .tc main_arg4) _ _ (by host_keeps)
theorem V_main_arg5 (c : Dev nD) : V m c main_arg5 = m ((c : Thread nD τ).loc main_arg5) :=
  StableHlo.after_of_forall_not_mem (b := Proc.devRef .tc main_arg5) _ _ (by host_keeps)
theorem V_main_arg6 (c : Dev nD) : V m c main_arg6 = m ((c : Thread nD τ).loc main_arg6) :=
  StableHlo.after_of_forall_not_mem (b := Proc.devRef .tc main_arg6) _ _ (by host_keeps)
theorem V_main_arg7 (c : Dev nD) : V m c main_arg7 = m ((c : Thread nD τ).loc main_arg7) :=
  StableHlo.after_of_forall_not_mem (b := Proc.devRef .tc main_arg7) _ _ (by host_keeps)
theorem V_main_arg8 (c : Dev nD) : V m c main_arg8 = m ((c : Thread nD τ).loc main_arg8) :=
  StableHlo.after_of_forall_not_mem (b := Proc.devRef .tc main_arg8) _ _ (by host_keeps)
theorem V_main_arg9 (c : Dev nD) : V m c main_arg9 = m ((c : Thread nD τ).loc main_arg9) :=
  StableHlo.after_of_forall_not_mem (b := Proc.devRef .tc main_arg9) _ _ (by host_keeps)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point: fetched there, or (the three small arrays,
    fetched once) still there from the first point because the body leaves it in place and the block index never moves.
    One statement per input window: a window's block shape is only known once the window is. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rX : Rect S4096x512 := Rect.unit (s := S4096x512) ![0, 0] S4096x512.size inb_S4096x512_S4096x512_0_0
abbrev rW : Rect S512x128 := Rect.unit (s := S512x128) ![0, 0] S512x128.size inb_S512x128_S512x128_0_0
abbrev rB : Rect S1x128 := Rect.unit (s := S1x128) ![0, 0] S1x128.size inb_S1x128_S1x128_0_0
abbrev rM : Rect S4096x1 := Rect.unit (s := S4096x1) ![0, 0] S4096x1.size inb_S4096x1_S4096x1_0_0
abbrev rO : Rect S4096x43 := Rect.unit (s := S4096x43) ![0, 0] S4096x43.size inb_S4096x43_S4096x43_0_0

/-- The output buffer after the body, as a function of the five input blocks: the one store's value laid over the whole
    buffer. The arguments are the blocks of `x`, the padded weights, the padded biases, the class row and the labels. -/
def blockOut (x0 : Vec F S4096x512 .f32) (x1 : Vec F S512x128 .f32) (x2 : Vec F S1x128 .f32) (x3 : Vec F S1x128 .i32) (x4 : Vec F S4096x1 .i32) :
    Vec F S4096x43 .f32 :=
  View.canon [⟨rO, k0_pay1 (View.ld x0 rX) (View.ld x1 rW) (View.ld x2 rB) (View.ld x4 rM) (View.ld x3 rB)⟩]

/-- The one store covers the buffer. -/
theorem cover_out (p0 : Vec F S4096x43 .f32) (y : S4096x43.Idx) :
    ∃ pc ∈ ([⟨rO, p0⟩] : List (View.Piece (Elt F) S4096x43 .f32)), y ∈ pc.1.set :=
  View.cover_of_tiled [⟨rO, p0⟩] S4096x43.size (by rfl) y

/-! ## The body's triple -/

set_option maxHeartbeats 1000000 in
/-- The body, on whole staging buffers holding `x0 … x4` and an output buffer holding anything, returns with the inputs
    as they were and the output at `blockOut x0 … x4`. -/
theorem sound_kernel (c : Dev nD) (E : Set ℕ) (i : grid0.Coords)
    (arg1 : Memref sig .tc .vmem S4096x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S1x128 .i32) (harg4 : arg4.IsWhole)
    (arg5 : Memref sig .tc .vmem S4096x1 .i32) (harg5 : arg5.IsWhole) (arg6 : Memref sig .tc .vmem S4096x43 .f32) (harg6 : arg6.IsWhole)
    (x0 : Vec F S4096x512 .f32) (x1 : Vec F S512x128 .f32) (x2 : Vec F S1x128 .f32) (x3 : Vec F S1x128 .i32) (x4 : Vec F S4096x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockOut x0 x1 x2 x3 x4)) -∗ K ⟨⟩))
      ⊢ wp frame (wpE (defs₀ (F := F)) Variants.none c none) E (cc0__lambda_ i arg1 harg1 arg2 harg2 arg3 harg3 arg4 harg4 arg5 harg5 arg6 harg6) K := by
  simp only [cc0__lambda__eq_skeleton]; unfold cc0__lambda__skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The arrays as the region finds them; after the body at point `t` each input buffer at its block and the output
    buffer at `blockOut` of the five blocks; nothing kept between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = blockOut (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the triple above applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every array of the pipeline holds what
    the write-backs left (an input: what the region found) and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The ten arguments at the end of such a run are the launch contents: `x` is the pipeline's first array, an input,
    and the other nine are staged by no window; none is written by a host operation. -/
theorem args_kept (c : Dev nD) (r : PUnit × MemSt nD τ sig (Elt F)) (h : Pipeline.FramePost cfgs (dats m) 0 (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c)⟩

/-- The frame: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m c r h) (run_main m ρ)

end Cert.Kernel.Frame

end
-- ==== Proof.KernelIdealFrame.lean ====
/-
  The frame of `KernelIdeal`: the program terminates without a fault and leaves its ten argument arrays as it found them.

  @main first builds, by host operations, the four arrays the kernel reads beside `x`: the 512×128 matrix of the four
  heads' weights side by side padded with zero columns, the 1×128 row of their biases padded with zeros, the 1×128 row
  giving each column its head's number (−1 on the padding), and the labels as a 131072×1 column. None of these operations
  writes an argument. The one region then visits 32 grid points; at point `t` it is handed rows 4096·t … 4096·t+4095 of
  `x` and of the label column and the three small arrays whole, and it stores ONE 4096×43 block that covers its output
  buffer. So what the output buffer holds after the body is a function (`blockOut`) of the five input blocks alone, the
  body's loads return exactly those blocks, and the launch theorem for kernels that keep nothing between points gives the
  run: every array of the pipeline ends at what the write-backs left, every other buffer as the region found it.
-/
import proofs.«176729_j18090402250892_2_alg».proof.Proof.Gen.KernelIdeal.Launch
import proofs.«176729_j18090402250892_2_alg».proof.Proof.Gen.KernelIdeal.Skeleton
import proofs.«176729_j18090402250892_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the thirteen host operations
    (the class table, the concatenated and padded weights, the concatenated, reshaped and padded biases, the labels as
    a column). -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is its five stretches of host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer none of the host operations writes is found by the region as launched. Each operation writes only its own
    result buffer, and no result buffer is an argument. -/
local macro "host_keeps" : tactic => `(tactic| (
  refine List.forall_iff_forall_mem.mp ?_
  simp only [hostOps0, hostOps0_1, hostOps0_2, hostOps0_3, hostOps0_4, List.flatten_cons, List.flatten_nil, List.append_nil, List.cons_append,
    List.nil_append, List.Forall, StableHlo.TRef.unary, StableHlo.TRef.binary, StableHlo.nullary_writes, StableHlo.unary_writes, StableHlo.binary_writes,
    StableHlo.nary_writes, StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (by host_keeps)
theorem V_main_arg1 (c : Dev nD) : V m c main_arg1 = m ((c : Thread nD τ).loc main_arg1) :=
  StableHlo.after_of_forall_not_mem (b := Proc.devRef .tc main_arg1) _ _ (by host_keeps)
theorem V_main_arg2 (c : Dev nD) : V m c main_arg2 = m ((c : Thread nD τ).loc main_arg2) :=
  StableHlo.after_of_forall_not_mem (b := Proc.devRef .tc main_arg2) _ _ (by host_keeps)
theorem V_main_arg3 (c : Dev nD) : V m c main_arg3 = m ((c : Thread nD τ).loc main_arg3) :=
  StableHlo.after_of_forall_not_mem (b := Proc.devRef .tc main_arg3) _ _ (by host_keeps)
theorem V_main_arg4 (c : Dev nD) : V m c main_arg4 = m ((c : Thread nD τ).loc main_arg4) :=
  StableHlo.after_of_forall_not_mem (b := Proc.devRef .tc main_arg4) _ _ (by host_keeps)
theorem V_main_arg5 (c : Dev nD) : V m c main_arg5 = m ((c : Thread nD τ).loc main_arg5) :=
  StableHlo.after_of_forall_not_mem (b := Proc.devRef .tc main_arg5) _ _ (by host_keeps)
theorem V_main_arg6 (c : Dev nD) : V m c main_arg6 = m ((c : Thread nD τ).loc main_arg6) :=
  StableHlo.after_of_forall_not_mem (b := Proc.devRef .tc main_arg6) _ _ (by host_keeps)
theorem V_main_arg7 (c : Dev nD) : V m c main_arg7 = m ((c : Thread nD τ).loc main_arg7) :=
  StableHlo.after_of_forall_not_mem (b := Proc.devRef .tc main_arg7) _ _ (by host_keeps)
theorem V_main_arg8 (c : Dev nD) : V m c main_arg8 = m ((c : Thread nD τ).loc main_arg8) :=
  StableHlo.after_of_forall_not_mem (b := Proc.devRef .tc main_arg8) _ _ (by host_keeps)
theorem V_main_arg9 (c : Dev nD) : V m c main_arg9 = m ((c : Thread nD τ).loc main_arg9) :=
  StableHlo.after_of_forall_not_mem (b := Proc.devRef .tc main_arg9) _ _ (by host_keeps)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point: fetched there, or (the three small arrays,
    fetched once) still there from the first point because the body leaves it in place and the block index never moves.
    One statement per input window: a window's block shape is only known once the window is. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rX : Rect S4096x512 := Rect.unit (s := S4096x512) ![0, 0] S4096x512.size inb_S4096x512_S4096x512_0_0
abbrev rW : Rect S512x128 := Rect.unit (s := S512x128) ![0, 0] S512x128.size inb_S512x128_S512x128_0_0
abbrev rB : Rect S1x128 := Rect.unit (s := S1x128) ![0, 0] S1x128.size inb_S1x128_S1x128_0_0
abbrev rM : Rect S4096x1 := Rect.unit (s := S4096x1) ![0, 0] S4096x1.size inb_S4096x1_S4096x1_0_0
abbrev rO : Rect S4096x43 := Rect.unit (s := S4096x43) ![0, 0] S4096x43.size inb_S4096x43_S4096x43_0_0

/-- The output buffer after the body, as a function of the five input blocks: the one store's value laid over the whole
    buffer. The arguments are the blocks of `x`, the padded weights, the padded biases, the class row and the labels. -/
def blockOut (x0 : Vec F S4096x512 .f32) (x1 : Vec F S512x128 .f32) (x2 : Vec F S1x128 .f32) (x3 : Vec F S1x128 .i32) (x4 : Vec F S4096x1 .i32) :
    Vec F S4096x43 .f32 :=
  View.canon [⟨rO, k0_pay1 (View.ld x0 rX) (View.ld x1 rW) (View.ld x2 rB) (View.ld x4 rM) (View.ld x3 rB)⟩]

/-- The one store covers the buffer. -/
theorem cover_out (p0 : Vec F S4096x43 .f32) (y : S4096x43.Idx) :
    ∃ pc ∈ ([⟨rO, p0⟩] : List (View.Piece (Elt F) S4096x43 .f32)), y ∈ pc.1.set :=
  View.cover_of_tiled [⟨rO, p0⟩] S4096x43.size (by rfl) y

/-! ## The body's triple -/

set_option maxHeartbeats 1000000 in
/-- The body, on whole staging buffers holding `x0 … x4` and an output buffer holding anything, returns with the inputs
    as they were and the output at `blockOut x0 … x4`. -/
theorem sound_kernel (c : Dev nD) (E : Set ℕ) (i : grid0.Coords)
    (arg1 : Memref sig .tc .vmem S4096x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S1x128 .i32) (harg4 : arg4.IsWhole)
    (arg5 : Memref sig .tc .vmem S4096x1 .i32) (harg5 : arg5.IsWhole) (arg6 : Memref sig .tc .vmem S4096x43 .f32) (harg6 : arg6.IsWhole)
    (x0 : Vec F S4096x512 .f32) (x1 : Vec F S512x128 .f32) (x2 : Vec F S1x128 .f32) (x3 : Vec F S1x128 .i32) (x4 : Vec F S4096x1 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockOut x0 x1 x2 x3 x4)) -∗ K ⟨⟩))
      ⊢ wp frame (wpE (defs₀ (F := F)) Variants.none c none) E (cc0__lambda_ i arg1 harg1 arg2 harg2 arg3 harg3 arg4 harg4 arg5 harg5 arg6 harg6) K := by
  simp only [cc0__lambda__eq_skeleton]; unfold cc0__lambda__skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

/-! ## The pipeline's proof data -/

/-- The arrays as the region finds them; after the body at point `t` each input buffer at its block and the output
    buffer at `blockOut` of the five blocks; nothing kept between points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = blockOut (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the triple above applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every array of the pipeline holds what
    the write-backs left (an input: what the region found) and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The ten arguments at the end of such a run are the launch contents: `x` is the pipeline's first array, an input,
    and the other nine are staged by no window; none is written by a host operation. -/
theorem args_kept (c : Dev nD) (r : PUnit × MemSt nD τ sig (Elt F)) (h : Pipeline.FramePost cfgs (dats m) 0 (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c)⟩

/-- The frame: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_kept m c r h) (run_main m ρ)

end Cert.KernelIdeal.Frame

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.KernelIdealPayload.lean ====
/-
  The value the kernel body stores, entry by entry, on the extended reals.

  The body multiplies its 4096 × 512 block of `x` by the 512 × 128 padded weight matrix, adds the 1 × 128 bias row to
  every row, keeps an entry where the row's label (a 4096 × 1 column spread over the 128 columns) equals the column's
  class (a 1 × 128 row spread over the 4096 rows) and puts zero elsewhere, and stores the first 43 columns. A change of
  float format is the identity here, so entry (r, j) of what is stored is

      Σ_k x[r, k] · w[k, j] + bias[j]   if label[r] = class[j],      0 otherwise.
-/
import proofs.«176729_j18090402250892_2_alg».proof.Proof.Gen.KernelIdeal.Skeleton
import proofs.«176729_j18090402250892_2_alg».proof.Proof.LibPlainMatmul
import proofs.«176729_j18090402250892_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The label column spread over 128 columns: entry (r, e) is row r's label. -/
theorem labels_spread (m4 : Vec Ideal S4096x1 .i32) (h1 : S4096x1.ShapeCasts S4096x1) (h2 : S4096x1.Broadcasts S4096x128)
    (r : Fin 4096) (e : Fin 128) :
    broadcastTo S4096x128 (shapeCast S4096x1 m4 h1) h2 (ix2 r e) = m4 (ix2 r (0 : Fin 1)) :=
  (Cert.LibKeepdims.broadcastTo_a1_ac_apply _ h2 r e).trans (congrFun (shapeCast_self m4 h1) _)

/-- A 1×128 row spread over 4096 rows: entry (r, e) is the row's entry e. -/
theorem row_spread {α : Type} (v : S1x128.Idx → α) (h : S1x128.Broadcasts S4096x128) (r : Fin 4096) (e : Fin 128) :
    broadcastTo S4096x128 v h (ix2 r e) = v (ix2 (0 : Fin 1) e) :=
  broadcastTo_1b_ab_apply v h r e

/-- The product of the block of `x` with the 512×128 weights, both read as they are (a change of float format is the
    identity on the extended reals), into the zero accumulator: entry (r, e) is Σ_k x[r, k] · w[k, e]. -/
theorem product_entry (x0 : Vec Ideal S4096x512 .f32) (x1 : Vec Ideal S512x128 .f32)
    (hb : FTy.bits .bf16 < FTy.bits .f32) (hc : S512x128.ShapeCasts S512x128) (r : Fin 4096) (e : Fin 128) :
    matmul (F := Ideal) dot_S4096x512_S512x128_S4096x128_1_0_0_1_n_n none (truncf .bf16 x0 hb) (truncf .bf16 (shapeCast S512x128 x1 hc) hb)
        (constant (F := Ideal) S4096x128 .f32 0x00000000#32) (ix2 r e)
      = ∑ k : Fin 512, x0 (ix2 r k) * x1 (ix2 k e) := by
  refine (matmul_plain_zero_apply dot_S4096x512_S512x128_S4096x128_1_0_0_1_n_n rfl none _ _ r e).trans ?_
  refine Finset.sum_congr rfl fun k _ => ?_
  rw [shapeCast_self x1 hc]
  rfl

/-- The value the body stores, at row r of the block and column j < 43: the row's score for column j,
    Σ_k x[r, k] · w[k, j] + bias[j], where the row's label equals column j's class, and zero elsewhere. -/
theorem payload_entry (x0 : Vec Ideal S4096x512 .f32) (x1 : Vec Ideal S512x128 .f32) (x2 : Vec Ideal S1x128 .f32)
    (m4 : Vec Ideal S4096x1 .i32) (c3 : Vec Ideal S1x128 .i32) (r : Fin 4096) (j : Fin 43) (e : Fin 128) (he : e.val = 0 + j.val) :
    k0_pay1 x0 x1 x2 m4 c3 (ix2 r j)
      = Scalar.select (IntOp.cmpi .eq (m4 (ix2 r (0 : Fin 1))) (c3 (ix2 (0 : Fin 1) e)))
          ((∑ k : Fin 512, x0 (ix2 r k) * x1 (ix2 k e)) + x2 (ix2 (0 : Fin 1) e)) (Ideal.ofBits .f32 0x00000000#32) := by
  unfold k0_pay1
  refine (slice2_axis1_apply 0 _ slices_S4096x128_o0_0_S4096x43 r j e he).trans ?_
  refine (select_apply _ _ _ _).trans ?_
  refine congr (congr (congrArg Scalar.select ?_) ?_) ?_
  · show IntOp.cmpi .eq _ _ = _
    refine congr (congrArg (IntOp.cmpi .eq) ?_) ?_
    · exact labels_spread m4 _ _ r e
    · exact row_spread c3 _ r e
  · refine (addf_apply _ _ _).trans ?_
    refine congr (congrArg HAdd.hAdd ?_) ?_
    · exact product_entry x0 x1 _ _ r e
    · exact (row_spread _ _ r e).trans (congrFun (shapeCast_self x2 _) _)
  · rfl

end Cert.KernelIdeal.Payload

end
-- ==== Proof.HeadsSpec.lean ====
/-
  Four linear classifiers routed by a label, as one function.

  Rows n < 131072 of `x` carry a label `mask n`; head h ∈ {0, 1, 2, 3} has a 512 × c_h weight matrix and c_h biases,
  c = (17, 12, 6, 8). The result has 43 = 17 + 12 + 6 + 8 columns; column j belongs to the head whose span holds it, and

      out[n, j] = Σ_k x[n, k] · W[k, j] + b[j]   if mask n is column j's head,      0 otherwise,

  where W and b are the heads' weights and biases laid side by side. `entry` is that formula over the laid-out arrays
  and a table `cls` of each column's head; the lemmas after it read a four-piece concatenation along the last axis at
  a column in each of the four spans (the piece that holds it, at the column less the widths before it).
-/
import Idealize.ShloMosaic.PureOps.Ideal
import Idealize.ShloMosaic.Lib.ValueIdx
import Idealize.ShloMosaic.Lib.Pipeline.Value

noncomputable section

namespace Cert.Heads

open Idealize.ShloMosaic Idealize.ShloMosaic.ValueIdx

abbrev SX : Shape := ⟨2, ![131072, 512]⟩
abbrev SW : Shape := ⟨2, ![512, 43]⟩
abbrev SB : Shape := ⟨1, ![43]⟩
abbrev SM : Shape := ⟨1, ![131072]⟩
abbrev SO : Shape := ⟨2, ![131072, 43]⟩
abbrev SW0 : Shape := ⟨2, ![512, 17]⟩
abbrev SW1 : Shape := ⟨2, ![512, 12]⟩
abbrev SW2 : Shape := ⟨2, ![512, 6]⟩
abbrev SW3 : Shape := ⟨2, ![512, 8]⟩
abbrev SB0 : Shape := ⟨1, ![17]⟩
abbrev SB1 : Shape := ⟨1, ![12]⟩
abbrev SB2 : Shape := ⟨1, ![6]⟩
abbrev SB3 : Shape := ⟨1, ![8]⟩
abbrev SO0 : Shape := ⟨2, ![131072, 17]⟩
abbrev SO1 : Shape := ⟨2, ![131072, 12]⟩
abbrev SO2 : Shape := ⟨2, ![131072, 6]⟩
abbrev SO3 : Shape := ⟨2, ![131072, 8]⟩

/-- Entry (n, j) of the result: row n's score for column j where the row's label is the column's head, zero elsewhere. -/
def entry (x : SX.Idx → EReal) (W : SW.Idx → EReal) (b : SB.Idx → EReal) (cls : Fin 43 → BitVec 32) (mask : SM.Idx → BitVec 32)
    (n : Fin 131072) (j : Fin 43) : EReal :=
  Scalar.select (IntOp.cmpi .eq (mask (ix1 n)) (cls j)) ((∑ k : Fin 512, x (ix2 n k) * W (ix2 k j)) + b (ix1 j)) (Ideal.ofBits .f32 0x00000000#32)

/-- The whole result. -/
def scores (x : SX.Idx → EReal) (W : SW.Idx → EReal) (b : SB.Idx → EReal) (cls : Fin 43 → BitVec 32) (mask : SM.Idx → BitVec 32) :
    SO.Idx → EReal := fun i => entry x W b cls mask (i 0) (i 1)

/-- Column j's head: 0 on columns 0…16, 1 on 17…28, 2 on 29…34, 3 on 35…42. -/
def colHead (j : Fin 43) : BitVec 32 :=
  if j.val < 17 then 0#32 else if j.val < 29 then 1#32 else if j.val < 35 then 2#32 else 3#32

/-! ## Four pieces side by side, read at a column -/

theorem hcatW : Shape.Concatenates [SW0, SW1, SW2, SW3] SW 1 := by decide

/-- The four heads' weights side by side: 512 × 43. -/
def catW (A0 : SW0.Idx → EReal) (A1 : SW1.Idx → EReal) (A2 : SW2.Idx → EReal) (A3 : SW3.Idx → EReal) : SW.Idx → EReal :=
  concatenate SW 1 [⟨SW0, A0⟩, ⟨SW1, A1⟩, ⟨SW2, A2⟩, ⟨SW3, A3⟩] hcatW

theorem catW_head0 (A0 : SW0.Idx → EReal) (A1 : SW1.Idx → EReal) (A2 : SW2.Idx → EReal) (A3 : SW3.Idx → EReal)
    (k : Fin 512) (j : Fin 43) (hj : j.val - 0 < 17) :
    catW A0 A1 A2 A3 (ix2 k j) = A0 (ix2 k ⟨j.val - 0, hj⟩) :=
  concatenate_apply_piece (t := SW) (1 : Fin 2) [⟨SW0, A0⟩, ⟨SW1, A1⟩, ⟨SW2, A2⟩, ⟨SW3, A3⟩] hcatW (ix2 k j) 0 (by show 0 < 4; omega) SW0 A0 rfl rfl 0 rfl
    (ix2 k ⟨j.val - 0, hj⟩) (fun b hb => by match b, hb with | ⟨0, _⟩, _ => rfl | ⟨1, _⟩, hb => exact absurd rfl hb)
    (by show 0 + (j.val - 0) = j.val; omega)

theorem catW_head1 (A0 : SW0.Idx → EReal) (A1 : SW1.Idx → EReal) (A2 : SW2.Idx → EReal) (A3 : SW3.Idx → EReal)
    (k : Fin 512) (j : Fin 43) (h0 : 17 ≤ j.val) (hj : j.val - 17 < 12) :
    catW A0 A1 A2 A3 (ix2 k j) = A1 (ix2 k ⟨j.val - 17, hj⟩) :=
  concatenate_apply_piece (t := SW) (1 : Fin 2) [⟨SW0, A0⟩, ⟨SW1, A1⟩, ⟨SW2, A2⟩, ⟨SW3, A3⟩] hcatW (ix2 k j) 1 (by show 1 < 4; omega) SW1 A1 rfl rfl 17 rfl
    (ix2 k ⟨j.val - 17, hj⟩) (fun b hb => by match b, hb with | ⟨0, _⟩, _ => rfl | ⟨1, _⟩, hb => exact absurd rfl hb)
    (by show 17 + (j.val - 17) = j.val; omega)

theorem catW_head2 (A0 : SW0.Idx → EReal) (A1 : SW1.Idx → EReal) (A2 : SW2.Idx → EReal) (A3 : SW3.Idx → EReal)
    (k : Fin 512) (j : Fin 43) (h0 : 29 ≤ j.val) (hj : j.val - 29 < 6) :
    catW A0 A1 A2 A3 (ix2 k j) = A2 (ix2 k ⟨j.val - 29, hj⟩) :=
  concatenate_apply_piece (t := SW) (1 : Fin 2) [⟨SW0, A0⟩, ⟨SW1, A1⟩, ⟨SW2, A2⟩, ⟨SW3, A3⟩] hcatW (ix2 k j) 2 (by show 2 < 4; omega) SW2 A2 rfl rfl 29 rfl
    (ix2 k ⟨j.val - 29, hj⟩) (fun b hb => by match b, hb with | ⟨0, _⟩, _ => rfl | ⟨1, _⟩, hb => exact absurd rfl hb)
    (by show 29 + (j.val - 29) = j.val; omega)

theorem catW_head3 (A0 : SW0.Idx → EReal) (A1 : SW1.Idx → EReal) (A2 : SW2.Idx → EReal) (A3 : SW3.Idx → EReal)
    (k : Fin 512) (j : Fin 43) (h0 : 35 ≤ j.val) (hj : j.val - 35 < 8) :
    catW A0 A1 A2 A3 (ix2 k j) = A3 (ix2 k ⟨j.val - 35, hj⟩) :=
  concatenate_apply_piece (t := SW) (1 : Fin 2) [⟨SW0, A0⟩, ⟨SW1, A1⟩, ⟨SW2, A2⟩, ⟨SW3, A3⟩] hcatW (ix2 k j) 3 (by show 3 < 4; omega) SW3 A3 rfl rfl 35 rfl
    (ix2 k ⟨j.val - 35, hj⟩) (fun b hb => by match b, hb with | ⟨0, _⟩, _ => rfl | ⟨1, _⟩, hb => exact absurd rfl hb)
    (by show 35 + (j.val - 35) = j.val; omega)

theorem hcatB : Shape.Concatenates [SB0, SB1, SB2, SB3] SB 0 := by decide

/-- The four heads' biases end to end: 43 entries. -/
def catB (A0 : SB0.Idx → EReal) (A1 : SB1.Idx → EReal) (A2 : SB2.Idx → EReal) (A3 : SB3.Idx → EReal) : SB.Idx → EReal :=
  concatenate SB 0 [⟨SB0, A0⟩, ⟨SB1, A1⟩, ⟨SB2, A2⟩, ⟨SB3, A3⟩] hcatB

theorem catB_head0 (A0 : SB0.Idx → EReal) (A1 : SB1.Idx → EReal) (A2 : SB2.Idx → EReal) (A3 : SB3.Idx → EReal)
    (j : Fin 43) (hj : j.val - 0 < 17) :
    catB A0 A1 A2 A3 (ix1 j) = A0 (ix1 ⟨j.val - 0, hj⟩) :=
  concatenate_apply_piece (t := SB) (0 : Fin 1) [⟨SB0, A0⟩, ⟨SB1, A1⟩, ⟨SB2, A2⟩, ⟨SB3, A3⟩] hcatB (ix1 j) 0 (by show 0 < 4; omega) SB0 A0 rfl rfl 0 rfl
    (ix1 ⟨j.val - 0, hj⟩) (fun b hb => by match b, hb with | ⟨0, _⟩, hb => exact absurd rfl hb)
    (by show 0 + (j.val - 0) = j.val; omega)

theorem catB_head1 (A0 : SB0.Idx → EReal) (A1 : SB1.Idx → EReal) (A2 : SB2.Idx → EReal) (A3 : SB3.Idx → EReal)
    (j : Fin 43) (h0 : 17 ≤ j.val) (hj : j.val - 17 < 12) :
    catB A0 A1 A2 A3 (ix1 j) = A1 (ix1 ⟨j.val - 17, hj⟩) :=
  concatenate_apply_piece (t := SB) (0 : Fin 1) [⟨SB0, A0⟩, ⟨SB1, A1⟩, ⟨SB2, A2⟩, ⟨SB3, A3⟩] hcatB (ix1 j) 1 (by show 1 < 4; omega) SB1 A1 rfl rfl 17 rfl
    (ix1 ⟨j.val - 17, hj⟩) (fun b hb => by match b, hb with | ⟨0, _⟩, hb => exact absurd rfl hb)
    (by show 17 + (j.val - 17) = j.val; omega)

theorem catB_head2 (A0 : SB0.Idx → EReal) (A1 : SB1.Idx → EReal) (A2 : SB2.Idx → EReal) (A3 : SB3.Idx → EReal)
    (j : Fin 43) (h0 : 29 ≤ j.val) (hj : j.val - 29 < 6) :
    catB A0 A1 A2 A3 (ix1 j) = A2 (ix1 ⟨j.val - 29, hj⟩) :=
  concatenate_apply_piece (t := SB) (0 : Fin 1) [⟨SB0, A0⟩, ⟨SB1, A1⟩, ⟨SB2, A2⟩, ⟨SB3, A3⟩] hcatB (ix1 j) 2 (by show 2 < 4; omega) SB2 A2 rfl rfl 29 rfl
    (ix1 ⟨j.val - 29, hj⟩) (fun b hb => by match b, hb with | ⟨0, _⟩, hb => exact absurd rfl hb)
    (by show 29 + (j.val - 29) = j.val; omega)

theorem catB_head3 (A0 : SB0.Idx → EReal) (A1 : SB1.Idx → EReal) (A2 : SB2.Idx → EReal) (A3 : SB3.Idx → EReal)
    (j : Fin 43) (h0 : 35 ≤ j.val) (hj : j.val - 35 < 8) :
    catB A0 A1 A2 A3 (ix1 j) = A3 (ix1 ⟨j.val - 35, hj⟩) :=
  concatenate_apply_piece (t := SB) (0 : Fin 1) [⟨SB0, A0⟩, ⟨SB1, A1⟩, ⟨SB2, A2⟩, ⟨SB3, A3⟩] hcatB (ix1 j) 3 (by show 3 < 4; omega) SB3 A3 rfl rfl 35 rfl
    (ix1 ⟨j.val - 35, hj⟩) (fun b hb => by match b, hb with | ⟨0, _⟩, hb => exact absurd rfl hb)
    (by show 35 + (j.val - 35) = j.val; omega)

theorem hcatO : Shape.Concatenates [SO0, SO1, SO2, SO3] SO 1 := by decide

/-- Four per-head results side by side: 131072 × 43. -/
def catO (A0 : SO0.Idx → EReal) (A1 : SO1.Idx → EReal) (A2 : SO2.Idx → EReal) (A3 : SO3.Idx → EReal) : SO.Idx → EReal :=
  concatenate SO 1 [⟨SO0, A0⟩, ⟨SO1, A1⟩, ⟨SO2, A2⟩, ⟨SO3, A3⟩] hcatO

theorem catO_head0 (A0 : SO0.Idx → EReal) (A1 : SO1.Idx → EReal) (A2 : SO2.Idx → EReal) (A3 : SO3.Idx → EReal)
    (k : Fin 131072) (j : Fin 43) (hj : j.val - 0 < 17) :
    catO A0 A1 A2 A3 (ix2 k j) = A0 (ix2 k ⟨j.val - 0, hj⟩) :=
  concatenate_apply_piece (t := SO) (1 : Fin 2) [⟨SO0, A0⟩, ⟨SO1, A1⟩, ⟨SO2, A2⟩, ⟨SO3, A3⟩] hcatO (ix2 k j) 0 (by show 0 < 4; omega) SO0 A0 rfl rfl 0 rfl
    (ix2 k ⟨j.val - 0, hj⟩) (fun b hb => by match b, hb with | ⟨0, _⟩, _ => rfl | ⟨1, _⟩, hb => exact absurd rfl hb)
    (by show 0 + (j.val - 0) = j.val; omega)

theorem catO_head1 (A0 : SO0.Idx → EReal) (A1 : SO1.Idx → EReal) (A2 : SO2.Idx → EReal) (A3 : SO3.Idx → EReal)
    (k : Fin 131072) (j : Fin 43) (h0 : 17 ≤ j.val) (hj : j.val - 17 < 12) :
    catO A0 A1 A2 A3 (ix2 k j) = A1 (ix2 k ⟨j.val - 17, hj⟩) :=
  concatenate_apply_piece (t := SO) (1 : Fin 2) [⟨SO0, A0⟩, ⟨SO1, A1⟩, ⟨SO2, A2⟩, ⟨SO3, A3⟩] hcatO (ix2 k j) 1 (by show 1 < 4; omega) SO1 A1 rfl rfl 17 rfl
    (ix2 k ⟨j.val - 17, hj⟩) (fun b hb => by match b, hb with | ⟨0, _⟩, _ => rfl | ⟨1, _⟩, hb => exact absurd rfl hb)
    (by show 17 + (j.val - 17) = j.val; omega)

theorem catO_head2 (A0 : SO0.Idx → EReal) (A1 : SO1.Idx → EReal) (A2 : SO2.Idx → EReal) (A3 : SO3.Idx → EReal)
    (k : Fin 131072) (j : Fin 43) (h0 : 29 ≤ j.val) (hj : j.val - 29 < 6) :
    catO A0 A1 A2 A3 (ix2 k j) = A2 (ix2 k ⟨j.val - 29, hj⟩) :=
  concatenate_apply_piece (t := SO) (1 : Fin 2) [⟨SO0, A0⟩, ⟨SO1, A1⟩, ⟨SO2, A2⟩, ⟨SO3, A3⟩] hcatO (ix2 k j) 2 (by show 2 < 4; omega) SO2 A2 rfl rfl 29 rfl
    (ix2 k ⟨j.val - 29, hj⟩) (fun b hb => by match b, hb with | ⟨0, _⟩, _ => rfl | ⟨1, _⟩, hb => exact absurd rfl hb)
    (by show 29 + (j.val - 29) = j.val; omega)

theorem catO_head3 (A0 : SO0.Idx → EReal) (A1 : SO1.Idx → EReal) (A2 : SO2.Idx → EReal) (A3 : SO3.Idx → EReal)
    (k : Fin 131072) (j : Fin 43) (h0 : 35 ≤ j.val) (hj : j.val - 35 < 8) :
    catO A0 A1 A2 A3 (ix2 k j) = A3 (ix2 k ⟨j.val - 35, hj⟩) :=
  concatenate_apply_piece (t := SO) (1 : Fin 2) [⟨SO0, A0⟩, ⟨SO1, A1⟩, ⟨SO2, A2⟩, ⟨SO3, A3⟩] hcatO (ix2 k j) 3 (by show 3 < 4; omega) SO3 A3 rfl rfl 35 rfl
    (ix2 k ⟨j.val - 35, hj⟩) (fun b hb => by match b, hb with | ⟨0, _⟩, _ => rfl | ⟨1, _⟩, hb => exact absurd rfl hb)
    (by show 35 + (j.val - 35) = j.val; omega)

end Cert.Heads

end
-- ==== Proof.KernelIdealValue.lean ====
/-
  What the kernel's result array holds after the run, as one function of the arguments.

  At grid point t the body stores, at row r and column j of its 4096 × 43 block, the score of row 4096·t + r for
  column j where that row's label equals column j's class, and zero elsewhere — read off the five arrays the region is
  handed: `x`, the padded weights, the padded biases, the class row, the label column. That is block t of ONE
  function (`regionScores`) of those arrays, the 32 blocks cover the 131072 rows, so the array ends at that function.
  The four arrays built by host operations are then read at an index: the label column is the label vector; the class
  row is the table of the columns' heads; a padded array, inside its first 43 columns, is the array that was padded;
  and the weights and biases that were padded are the four heads' laid side by side. Hence the result is
  `Cert.Heads.scores` of the arguments.
-/
import proofs.«176729_j18090402250892_2_alg».proof.Proof.KernelIdealFrame
import proofs.«176729_j18090402250892_2_alg».proof.Proof.KernelIdealPayload
import proofs.«176729_j18090402250892_2_alg».proof.Proof.HeadsSpec
import Idealize.ShloMosaic.Lib.Pipeline.Value
import Idealize.ShloMosaic.Lib.KernelVsHost
import Idealize.ShloMosaic.Lib.StableHlo.Run
import Idealize.ShloMosaic.Lib.ValueLayout

set_option maxRecDepth 16384

noncomputable section

namespace Cert.KernelIdeal.OutValue

open Cert.KernelIdeal Cert.KernelIdeal.Gen Cert.KernelIdeal.Frame Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The result as one function of the five arrays the region reads -/

/-- Entry (n, j) of the result, from `x`, the padded weights, the padded biases, the class row and the label column. -/
def regionEntry (a0 : S131072x512.Idx → EReal) (a1 : S512x128.Idx → EReal) (a2 : S1x128.Idx → EReal) (a3 : S1x128.Idx → BitVec 32)
    (a4 : S131072x1.Idx → BitVec 32) (n : Fin 131072) (e : Fin 128) : EReal :=
  Scalar.select (IntOp.cmpi .eq (a4 (ix2 n (0 : Fin 1))) (a3 (ix2 (0 : Fin 1) e)))
    ((∑ k : Fin 512, a0 (ix2 n k) * a1 (ix2 k e)) + a2 (ix2 (0 : Fin 1) e)) (Ideal.ofBits .f32 0x00000000#32)

theorem col_lt (j : Fin 43) : j.val < 128 := by have := j.isLt; omega

def regionScores (a0 : S131072x512.Idx → EReal) (a1 : S512x128.Idx → EReal) (a2 : S1x128.Idx → EReal) (a3 : S1x128.Idx → BitVec 32)
    (a4 : S131072x1.Idx → BitVec 32) : S131072x43.Idx → EReal :=
  fun i => regionEntry a0 a1 a2 a3 a4 (i 0) ⟨(i 1).val, col_lt (i 1)⟩

theorem hz2 : (![0, 0] : Fin 2 → Nat) = fun _ => 0 := funext fun a => by fin_cases a <;> rfl

/-- The printed index maps over the 32 grid points: the windows of `x`, the labels and the result sit at block row t,
    block column 0; the three small arrays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := lt_of_lt_of_eq t.isLt N_0

/-! ## Each input block read where the arrays hold it -/

theorem x_block (c : Dev nD) (t : Fin cfg0.N) (r : Fin 4096) (k : Fin 512) (n : Fin 131072) (hn : n.val = t.val * 4096 + r.val) :
    iblk m c 0 t (ix2 r k) = V m c main_arg0 (ix2 n k) := by
  show V m c main_arg0 (((cfg0.win 0).blk t).view.emb (ix2 r k)) = _
  refine congrArg (V m c main_arg0) (funext fun a => Fin.ext ?_)
  obtain ⟨e0, e1, -⟩ := idx_facts t
  match a with
  | ⟨0, _⟩ => show win0_0.index t (0 : Fin 2) * 4096 + 1 * r.val = n.val; omega
  | ⟨1, _⟩ => show win0_0.index t (1 : Fin 2) * 512 + 1 * k.val = k.val; omega

theorem w_block (c : Dev nD) (t : Fin cfg0.N) (k : Fin 512) (e : Fin 128) :
    iblk m c 1 t (ix2 k e) = V m c main_v1 (ix2 k e) := by
  show V m c main_v1 (((cfg0.win 1).blk t).view.emb (ix2 k e)) = _
  refine congrArg (V m c main_v1) (funext fun a => Fin.ext ?_)
  obtain ⟨-, -, e0, e1, -⟩ := idx_facts t
  match a with
  | ⟨0, _⟩ => show win0_1.index t (0 : Fin 2) * 512 + 1 * k.val = k.val; omega
  | ⟨1, _⟩ => show win0_1.index t (1 : Fin 2) * 128 + 1 * e.val = e.val; omega

theorem b_block (c : Dev nD) (t : Fin cfg0.N) (e : Fin 128) :
    iblk m c 2 t (ix2 (0 : Fin 1) e) = V m c main_v4 (ix2 (0 : Fin 1) e) := by
  show V m c main_v4 (((cfg0.win 2).blk t).view.emb (ix2 (0 : Fin 1) e)) = _
  refine congrArg (V m c main_v4) (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 128 + 1 * e.val = e.val; omega

theorem c_block (c : Dev nD) (t : Fin cfg0.N) (e : Fin 128) :
    iblk m c 3 t (ix2 (0 : Fin 1) e) = V m c main_c (ix2 (0 : Fin 1) e) := by
  show V m c main_c (((cfg0.win 3).blk t).view.emb (ix2 (0 : Fin 1) e)) = _
  refine congrArg (V m c main_c) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 128 + 1 * e.val = e.val; omega

theorem m_block (c : Dev nD) (t : Fin cfg0.N) (r : Fin 4096) (n : Fin 131072) (hn : n.val = t.val * 4096 + r.val) :
    iblk m c 4 t (ix2 r (0 : Fin 1)) = V m c main_v5 (ix2 n (0 : Fin 1)) := by
  show V m c main_v5 (((cfg0.win 4).blk t).view.emb (ix2 r (0 : Fin 1))) = _
  refine congrArg (V m c main_v5) (funext fun a => Fin.ext ?_)
  obtain ⟨-, -, -, -, -, -, -, -, e0, e1, -⟩ := idx_facts t
  match a with
  | ⟨0, _⟩ => show win0_4.index t (0 : Fin 2) * 4096 + 1 * r.val = n.val; omega
  | ⟨1, _⟩ => show win0_4.index t (1 : Fin 2) * 1 + 1 * 0 = 0; omega

/-! ## What each point writes back, and the whole array -/

/-- What the body stores at point t, at row r and column j of its block: entry (4096·t + r, j) of `regionScores` of the
    arrays as the region finds them. -/
theorem stored_eq (c : Dev nD) (t : Fin cfg0.N) (r : Fin 4096) (j : Fin 43) (n : Fin 131072) (hn : n.val = t.val * 4096 + r.val) :
    k0_pay1 (iblk m c 0 t) (iblk m c 1 t) (iblk m c 2 t) (iblk m c 4 t) (iblk m c 3 t) (ix2 r j)
      = regionEntry (V m c main_arg0) (V m c main_v1) (V m c main_v4) (V m c main_c) (V m c main_v5) n ⟨j.val, col_lt j⟩ := by
  refine (Cert.KernelIdeal.Payload.payload_entry (iblk m c 0 t) (iblk m c 1 t) (iblk m c 2 t) (iblk m c 4 t) (iblk m c 3 t) r j
    ⟨j.val, col_lt j⟩ (Nat.zero_add _).symm).trans ?_
  rw [m_block m c t r n hn, c_block, b_block]
  simp only [x_block m c t r _ n hn, w_block]
  rfl

/-- Block t of `regionScores`, read at row r and column j, is its entry (4096·t + r, j). -/
theorem read_scores (a0 : S131072x512.Idx → EReal) (a1 : S512x128.Idx → EReal) (a2 : S1x128.Idx → EReal) (a3 : S1x128.Idx → BitVec 32)
    (a4 : S131072x1.Idx → BitVec 32) (t : Fin cfg0.N) (r : Fin 4096) (j : Fin 43) (n : Fin 131072) (hn : n.val = t.val * 4096 + r.val) :
    ((cfg0.win 5).blk t).view.read (Elt Ideal) (regionScores a0 a1 a2 a3 a4) (ix2 r j) = regionEntry a0 a1 a2 a3 a4 n ⟨j.val, col_lt j⟩ := by
  obtain ⟨-, -, -, -, -, -, -, -, -, -, e0, e1⟩ := idx_facts t
  show regionEntry a0 a1 a2 a3 a4 ((((cfg0.win 5).blk t).view.emb (ix2 r j)) 0) ⟨((((cfg0.win 5).blk t).view.emb (ix2 r j)) 1).val, _⟩ = _
  have h0 : ((((cfg0.win 5).blk t).view.emb (ix2 r j)) 0 : Fin 131072) = n :=
    Fin.ext (by show win0_5.index t (0 : Fin 2) * 4096 + 1 * r.val = n.val; omega)
  have h1 : (⟨((((cfg0.win 5).blk t).view.emb (ix2 r j)) 1).val, col_lt _⟩ : Fin 128) = ⟨j.val, col_lt j⟩ :=
    Fin.ext (by show win0_5.index t (1 : Fin 2) * 43 + 1 * j.val = j.val; omega)
  rw [h0, h1]

/-- The part of a stored block a write-back moves is the whole block: the result's blocks are never clipped. -/
theorem cut_apply (t : Fin cfg0.N) (X : S4096x43.Idx → EReal) (r : Fin 4096) (j : Fin 43) :
    (cfg0.win 5).cut (grid0.coords t) X (ix2 r j) = X (ix2 r j) :=
  congrArg X (funext fun a => Fin.ext rfl)

/-- Point t writes back block t of `regionScores` of the arrays as the region finds them. -/
theorem flushed_eq (c : Dev nD) (t : Fin cfg0.N) :
    (dats m 0 c).flushed 5 t = ((cfg0.win 5).blk t).view.read (Elt Ideal)
      (regionScores (V m c main_arg0) (V m c main_v1) (V m c main_v4) (V m c main_c) (V m c main_v5)) := by
  show (cfg0.win 5).cut (grid0.coords t) ((dats m 0 c).after 5 t) = _
  rw [after0_5]
  unfold blockOut
  rw [View.canon_unit_zero hz2]
  simp only [View.ld_unit_zero (S := S4096x512) hz2, View.ld_unit_zero (S := S512x128) hz2, View.ld_unit_zero (S := S1x128) hz2,
    View.ld_unit_zero (S := S4096x1) hz2]
  refine funext fun (y : S4096x43.Idx) => ?_
  obtain ⟨r, j, rfl⟩ : ∃ (r : Fin 4096) (j : Fin 43), y = ix2 r j := ⟨y 0, y 1, eq_ix2 y⟩
  have ht := t_lt t
  have hn : t.val * 4096 + r.val < 131072 := by have := r.isLt; omega
  refine (cut_apply t _ r j).trans ?_
  refine (stored_eq m c t r j ⟨_, hn⟩ rfl).trans ?_
  exact (read_scores _ _ _ _ _ t r j ⟨_, hn⟩ rfl).symm

/-- An index of the result is in point t's block iff each coordinate is in the block's range on its axis. -/
theorem mem_blk (t : Fin cfg0.N) (i : S131072x43.Idx) :
    i ∈ ((cfg0.win 5).blk t).view.set ↔ ∀ a : Fin 2, win0_5.index t a * S4096x43.size a ≤ (i a).val
      ∧ (i a).val < win0_5.index t a * S4096x43.size a + S4096x43.size a := by
  show i ∈ ((View.whole main_v6).slice (win0_5.rect t)).set ↔ _
  rw [View.set_slice_whole, Rect.mem_set_unit]
  exact Iff.rfl

/-- The 32 blocks of 4096 rows cover the result: row n is in block n / 4096. -/
theorem covered (i : S131072x43.Idx) : ∃ t : Fin cfg0.N, (cfg0.win 5).flush t = true ∧ i ∈ ((cfg0.win 5).blk t).view.set := by
  have hi0 : (i 0).val < 131072 := (i 0).isLt
  have hi1 : (i 1).val < 43 := (i 1).isLt
  obtain ⟨t, ht⟩ : ∃ t : Fin cfg0.N, t.val = (i 0).val / 4096 :=
    ⟨⟨(i 0).val / 4096, lt_of_lt_of_eq (by omega : (i 0).val / 4096 < 32) N_0.symm⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 43 ≤ (i 1).val ∧ (i 1).val < win0_5.index t (1 : Fin 2) * 43 + 43; omega

/-- The result array after the run is `regionScores` of the five arrays as the region finds them. -/
theorem final (c : Dev nD) : (dats m 0 c).arrAt 5 cfg0.N
    = regionScores (V m c main_arg0) (V m c main_v1) (V m c main_v4) (V m c main_c) (V m c main_v5) :=
  (dats m 0 c).arrAt_eq_of_cover 5 _ (fun t _ => flushed_eq m c t) covered

/-! ## The four arrays the host operations build, read at an index -/

local macro "open_V" : tactic => `(tactic| (
  dsimp only [V]
  simp only [hostOps0, hostOps0_1, hostOps0_2, hostOps0_3, hostOps0_4, List.flatten_cons, List.flatten_nil, List.append_nil, List.cons_append,
    List.nil_append]
  after_results))

/-- The label column is the label vector reshaped. -/
theorem labels_eq (c : Dev nD) : (V m c main_v5 : S131072x1.Idx → BitVec 32)
    = shapeCast S131072x1 (m ((c : Thread nD τ).loc main_arg9)) shapeCasts_S131072_S131072x1 := by
  open_V
  rfl

theorem labels_at (c : Dev nD) (n : Fin 131072) :
    V m c main_v5 (ix2 n (0 : Fin 1)) = m ((c : Thread nD τ).loc main_arg9) (ix1 n) :=
  (congrFun (labels_eq m c) _).trans (Cert.LibKeepdims.shapeCast_a_a1_apply _ _ n 0)

/-- The class row is the table of column classes. -/
theorem classes_eq (c : Dev nD) : (V m c main_c : S1x128.Idx → BitVec 32) = fun i => lit0 (S1x128.rowMajor i) := by
  open_V
  rfl

theorem lit0_head : ∀ j : Fin 43, lit0 ⟨j.val, col_lt j⟩ = Cert.Heads.colHead j := by decide

theorem classes_at (c : Dev nD) (j : Fin 43) : V m c main_c (ix2 (0 : Fin 1) ⟨j.val, col_lt j⟩) = Cert.Heads.colHead j := by
  refine (congrFun (classes_eq m c) _).trans ?_
  have h : S1x128.rowMajor (ix2 (0 : Fin 1) (⟨j.val, col_lt j⟩ : Fin 128)) = ⟨j.val, col_lt j⟩ :=
    Fin.ext (by rw [Shape.rowMajor_val_two]; show 0 * 128 + j.val = j.val; omega)
  show lit0 (S1x128.rowMajor (ix2 (0 : Fin 1) (⟨j.val, col_lt j⟩ : Fin 128))) = _
  rw [h]
  exact lit0_head j

/-- The padded weights are the four heads' weights side by side, padded with 85 columns on the right. -/
theorem weights_eq (c : Dev nD) : (V m c main_v1 : S512x128.Idx → EReal)
    = pad S512x128 ![0, 0] ![0, 85] ![0, 0]
        (Cert.Heads.catW (m ((c : Thread nD τ).loc main_arg1)) (m ((c : Thread nD τ).loc main_arg3)) (m ((c : Thread nD τ).loc main_arg5))
          (m ((c : Thread nD τ).loc main_arg7)))
        (sitofp (F := Ideal) .f32 (constantI S_ 32 0#32)) pads_S512x43_S512x128_000_0850 h_S_ := by
  open_V
  rfl

/-- Inside its first 43 columns the padded matrix is the matrix. -/
theorem weights_at (c : Dev nD) (k : Fin 512) (j : Fin 43) :
    V m c main_v1 (ix2 k (⟨j.val, col_lt j⟩ : Fin 128))
      = Cert.Heads.catW (m ((c : Thread nD τ).loc main_arg1)) (m ((c : Thread nD τ).loc main_arg3)) (m ((c : Thread nD τ).loc main_arg5))
          (m ((c : Thread nD τ).loc main_arg7)) (ix2 k j) :=
  (congrFun (weights_eq m c) _).trans (pad_apply_of_inside _ _ _ _ _ pads_S512x43_S512x128_000_0850 h_S_
    (ix2 k (⟨j.val, col_lt j⟩ : Fin 128)) (ix2 k j) (fun a => by
      match a with
      | ⟨0, _⟩ => show k.val = 0 + k.val * (0 + 1); omega
      | ⟨1, _⟩ => show j.val = 0 + j.val * (0 + 1); omega))

/-- The padded bias row is the four heads' biases end to end, as a row, padded with 85 entries on the right. -/
theorem biases_eq (c : Dev nD) : (V m c main_v4 : S1x128.Idx → EReal)
    = pad S1x128 ![0, 0] ![0, 85] ![0, 0]
        (shapeCast S1x43 (Cert.Heads.catB (m ((c : Thread nD τ).loc main_arg2)) (m ((c : Thread nD τ).loc main_arg4))
          (m ((c : Thread nD τ).loc main_arg6)) (m ((c : Thread nD τ).loc main_arg8))) shapeCasts_S43_S1x43)
        (sitofp (F := Ideal) .f32 (constantI S_ 32 0#32)) pads_S1x43_S1x128_000_0850 h_S_ := by
  open_V
  rfl

theorem biases_at (c : Dev nD) (j : Fin 43) :
    V m c main_v4 (ix2 (0 : Fin 1) (⟨j.val, col_lt j⟩ : Fin 128))
      = Cert.Heads.catB (m ((c : Thread nD τ).loc main_arg2)) (m ((c : Thread nD τ).loc main_arg4)) (m ((c : Thread nD τ).loc main_arg6))
          (m ((c : Thread nD τ).loc main_arg8)) (ix1 j) :=
  (congrFun (biases_eq m c) _).trans ((pad_apply_of_inside _ _ _ _ _ pads_S1x43_S1x128_000_0850 h_S_
    (ix2 (0 : Fin 1) (⟨j.val, col_lt j⟩ : Fin 128)) (ix2 (0 : Fin 1) j) (fun a => by
      match a with
      | ⟨0, _⟩ => show 0 = 0 + 0 * (0 + 1); omega
      | ⟨1, _⟩ => show j.val = 0 + j.val * (0 + 1); omega)).trans (shapeCast_a_1a_apply _ _ 0 j))

/-! ## The result as the routed classifiers' function of the arguments -/

theorem region_eq_spec (c : Dev nD) :
    regionScores (V m c main_arg0) (V m c main_v1) (V m c main_v4) (V m c main_c) (V m c main_v5)
      = Cert.Heads.scores (m ((c : Thread nD τ).loc main_arg0))
          (Cert.Heads.catW (m ((c : Thread nD τ).loc main_arg1)) (m ((c : Thread nD τ).loc main_arg3)) (m ((c : Thread nD τ).loc main_arg5))
            (m ((c : Thread nD τ).loc main_arg7)))
          (Cert.Heads.catB (m ((c : Thread nD τ).loc main_arg2)) (m ((c : Thread nD τ).loc main_arg4)) (m ((c : Thread nD τ).loc main_arg6))
            (m ((c : Thread nD τ).loc main_arg8)))
          Cert.Heads.colHead (m ((c : Thread nD τ).loc main_arg9)) := by
  funext i
  obtain ⟨n, j, rfl⟩ : ∃ (n : Fin 131072) (j : Fin 43), i = ix2 n j := ⟨i 0, i 1, eq_ix2 i⟩
  show regionEntry _ _ _ _ _ n ⟨j.val, col_lt j⟩ = Cert.Heads.entry _ _ _ _ _ n j
  unfold regionEntry Cert.Heads.entry
  rw [labels_at m c n, classes_at m c j, biases_at m c j, V_main_arg0]
  simp only [weights_at m c _ j]

/-- The kernel's run, read: the result array ends at the routed classifiers' function of the arguments, and the
    arguments end as they were. -/
theorem run : θ_run defs (onTc (τ := τ) (main (F := Ideal))) ⟨m, fun _ => 0, ρ⟩ fun r => ∀ c : Dev nD,
      r.2.mem ((c.tc : Thread nD τ).loc main_v6)
        = Cert.Heads.scores (m ((c : Thread nD τ).loc main_arg0))
          (Cert.Heads.catW (m ((c : Thread nD τ).loc main_arg1)) (m ((c : Thread nD τ).loc main_arg3)) (m ((c : Thread nD τ).loc main_arg5))
            (m ((c : Thread nD τ).loc main_arg7)))
          (Cert.Heads.catB (m ((c : Thread nD τ).loc main_arg2)) (m ((c : Thread nD τ).loc main_arg4)) (m ((c : Thread nD τ).loc main_arg6))
            (m ((c : Thread nD τ).loc main_arg8)))
          Cert.Heads.colHead (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 5).trans ((final m c).trans (region_eq_spec m c)), args_kept m c r h⟩)
    (run_main m ρ)

end Cert.KernelIdeal.OutValue

end
-- ==== Proof.RefValue.lean ====
/-
  The reference computes the routed classifiers' result.

  The reference masks each head's scores `x · W_h + b_h` by "label = h" row by row and lays the four masked results
  side by side. Read at (n, j): the piece holding column j is head h's, at the column less the widths before it; that
  head's entry is its score where the label is h and zero elsewhere; and the same column of the laid-out weights and
  biases is that head's. So the reference's result is `Cert.Heads.scores` of the arguments.
-/
import proofs.«176729_j18090402250892_2_alg».proof.Proof.Gen.ReferenceIdeal.Run
import proofs.«176729_j18090402250892_2_alg».proof.Proof.Gen.ReferenceIdeal.Read
import proofs.«176729_j18090402250892_2_alg».proof.Proof.HeadsSpec

noncomputable section

namespace Cert.ReferenceIdeal.RefValue

open Cert.ReferenceIdeal Cert.ReferenceIdeal.Gen Cert.ReferenceIdeal.Read Cert.Heads Idealize.ShloMosaic Idealize.ShloMosaic.ValueIdx

/-- Head 0's masked result at (n, j): row n's score for the head's column j where the row's label is 0, zero elsewhere. -/
theorem head0_entry (x0 : (⟨S131072x512, .f32⟩ : BufTy).Contents (Elt Ideal)) (x1 : (⟨S512x17, .f32⟩ : BufTy).Contents (Elt Ideal)) (x2 : (⟨S17, .f32⟩ : BufTy).Contents (Elt Ideal))
    (x9 : (⟨S131072, .i32⟩ : BufTy).Contents (Elt Ideal)) (n : Fin 131072) (j : Fin 17) :
    val_main_v7 (F := Ideal) x0 x1 x2 x9 (ix2 n j)
      = Scalar.select (IntOp.cmpi .eq (x9 (ix1 n)) 0#32) ((∑ k : Fin 512, x0 (ix2 n k) * x1 (ix2 k j)) + x2 (ix1 j))
          (Ideal.ofBits .f32 0x00000000#32) := by
  have e1 : idx_main_v2 (idx_main_call0_v1 (ix2 n j)) = ix1 n := funext fun a => Fin.ext (by match a with | ⟨0, _⟩ => rfl)
  have e2 : ∀ k : Fin 512, lidx_main_v3 (ix2 n j) k = ix2 n k := fun k => funext fun a => Fin.ext (by
    match a with | ⟨0, _⟩ => rfl | ⟨1, _⟩ => rfl)
  have e3 : ∀ k : Fin 512, ridx_main_v3 (ix2 n j) k = ix2 k j := fun k => funext fun a => Fin.ext (by
    match a with | ⟨0, _⟩ => rfl | ⟨1, _⟩ => rfl)
  have e4 : idx_main_v4 (idx_main_v5 (ix2 n j)) = ix1 j := funext fun a => Fin.ext (by match a with | ⟨0, _⟩ => rfl)
  rw [val_main_v7_apply, val_main_call0_v1_apply, val_main_v2_apply, val_main_v1_apply, val_main_v0_apply, val_main_c_apply,
    val_main_v6_apply, val_main_v3_apply, val_main_v5_apply, val_main_v4_apply, val_main_call0_v2_apply, val_main_call0_v0_apply,
    val_main_cst_apply]
  simp only [e1, e2, e3, e4]
  rfl

/-- Head 1's masked result at (n, j): row n's score for the head's column j where the row's label is 1, zero elsewhere. -/
theorem head1_entry (x0 : (⟨S131072x512, .f32⟩ : BufTy).Contents (Elt Ideal)) (x3 : (⟨S512x12, .f32⟩ : BufTy).Contents (Elt Ideal)) (x4 : (⟨S12, .f32⟩ : BufTy).Contents (Elt Ideal))
    (x9 : (⟨S131072, .i32⟩ : BufTy).Contents (Elt Ideal)) (n : Fin 131072) (j : Fin 12) :
    val_main_v15 (F := Ideal) x0 x3 x4 x9 (ix2 n j)
      = Scalar.select (IntOp.cmpi .eq (x9 (ix1 n)) 1#32) ((∑ k : Fin 512, x0 (ix2 n k) * x3 (ix2 k j)) + x4 (ix1 j))
          (Ideal.ofBits .f32 0x00000000#32) := by
  have e1 : idx_main_v10 (idx_main_call1_v1 (ix2 n j)) = ix1 n := funext fun a => Fin.ext (by match a with | ⟨0, _⟩ => rfl)
  have e2 : ∀ k : Fin 512, lidx_main_v11 (ix2 n j) k = ix2 n k := fun k => funext fun a => Fin.ext (by
    match a with | ⟨0, _⟩ => rfl | ⟨1, _⟩ => rfl)
  have e3 : ∀ k : Fin 512, ridx_main_v11 (ix2 n j) k = ix2 k j := fun k => funext fun a => Fin.ext (by
    match a with | ⟨0, _⟩ => rfl | ⟨1, _⟩ => rfl)
  have e4 : idx_main_v12 (idx_main_v13 (ix2 n j)) = ix1 j := funext fun a => Fin.ext (by match a with | ⟨0, _⟩ => rfl)
  rw [val_main_v15_apply, val_main_call1_v1_apply, val_main_v10_apply, val_main_v9_apply, val_main_v8_apply, val_main_c_0_apply,
    val_main_v14_apply, val_main_v11_apply, val_main_v13_apply, val_main_v12_apply, val_main_call1_v2_apply, val_main_call1_v0_apply,
    val_main_cst_1_apply]
  simp only [e1, e2, e3, e4]
  rfl

/-- Head 2's masked result at (n, j): row n's score for the head's column j where the row's label is 2, zero elsewhere. -/
theorem head2_entry (x0 : (⟨S131072x512, .f32⟩ : BufTy).Contents (Elt Ideal)) (x5 : (⟨S512x6, .f32⟩ : BufTy).Contents (Elt Ideal)) (x6 : (⟨S6, .f32⟩ : BufTy).Contents (Elt Ideal))
    (x9 : (⟨S131072, .i32⟩ : BufTy).Contents (Elt Ideal)) (n : Fin 131072) (j : Fin 6) :
    val_main_v23 (F := Ideal) x0 x5 x6 x9 (ix2 n j)
      = Scalar.select (IntOp.cmpi .eq (x9 (ix1 n)) 2#32) ((∑ k : Fin 512, x0 (ix2 n k) * x5 (ix2 k j)) + x6 (ix1 j))
          (Ideal.ofBits .f32 0x00000000#32) := by
  have e1 : idx_main_v18 (idx_main_call2_v1 (ix2 n j)) = ix1 n := funext fun a => Fin.ext (by match a with | ⟨0, _⟩ => rfl)
  have e2 : ∀ k : Fin 512, lidx_main_v19 (ix2 n j) k = ix2 n k := fun k => funext fun a => Fin.ext (by
    match a with | ⟨0, _⟩ => rfl | ⟨1, _⟩ => rfl)
  have e3 : ∀ k : Fin 512, ridx_main_v19 (ix2 n j) k = ix2 k j := fun k => funext fun a => Fin.ext (by
    match a with | ⟨0, _⟩ => rfl | ⟨1, _⟩ => rfl)
  have e4 : idx_main_v20 (idx_main_v21 (ix2 n j)) = ix1 j := funext fun a => Fin.ext (by match a with | ⟨0, _⟩ => rfl)
  rw [val_main_v23_apply, val_main_call2_v1_apply, val_main_v18_apply, val_main_v17_apply, val_main_v16_apply, val_main_c_2_apply,
    val_main_v22_apply, val_main_v19_apply, val_main_v21_apply, val_main_v20_apply, val_main_call2_v2_apply, val_main_call2_v0_apply,
    val_main_cst_3_apply]
  simp only [e1, e2, e3, e4]
  rfl

/-- Head 3's masked result at (n, j): row n's score for the head's column j where the row's label is 3, zero elsewhere. -/
theorem head3_entry (x0 : (⟨S131072x512, .f32⟩ : BufTy).Contents (Elt Ideal)) (x7 : (⟨S512x8, .f32⟩ : BufTy).Contents (Elt Ideal)) (x8 : (⟨S8, .f32⟩ : BufTy).Contents (Elt Ideal))
    (x9 : (⟨S131072, .i32⟩ : BufTy).Contents (Elt Ideal)) (n : Fin 131072) (j : Fin 8) :
    val_main_v31 (F := Ideal) x0 x7 x8 x9 (ix2 n j)
      = Scalar.select (IntOp.cmpi .eq (x9 (ix1 n)) 3#32) ((∑ k : Fin 512, x0 (ix2 n k) * x7 (ix2 k j)) + x8 (ix1 j))
          (Ideal.ofBits .f32 0x00000000#32) := by
  have e1 : idx_main_v26 (idx_main_call3_v1 (ix2 n j)) = ix1 n := funext fun a => Fin.ext (by match a with | ⟨0, _⟩ => rfl)
  have e2 : ∀ k : Fin 512, lidx_main_v27 (ix2 n j) k = ix2 n k := fun k => funext fun a => Fin.ext (by
    match a with | ⟨0, _⟩ => rfl | ⟨1, _⟩ => rfl)
  have e3 : ∀ k : Fin 512, ridx_main_v27 (ix2 n j) k = ix2 k j := fun k => funext fun a => Fin.ext (by
    match a with | ⟨0, _⟩ => rfl | ⟨1, _⟩ => rfl)
  have e4 : idx_main_v28 (idx_main_v29 (ix2 n j)) = ix1 j := funext fun a => Fin.ext (by match a with | ⟨0, _⟩ => rfl)
  rw [val_main_v31_apply, val_main_call3_v1_apply, val_main_v26_apply, val_main_v25_apply, val_main_v24_apply, val_main_c_4_apply,
    val_main_v30_apply, val_main_v27_apply, val_main_v29_apply, val_main_v28_apply, val_main_call3_v2_apply, val_main_call3_v0_apply,
    val_main_cst_5_apply]
  simp only [e1, e2, e3, e4]
  rfl

/-- The reference's result is the routed classifiers' function of its arguments. -/
theorem result_eq (x0 : (⟨S131072x512, .f32⟩ : BufTy).Contents (Elt Ideal)) (x1 : (⟨S512x17, .f32⟩ : BufTy).Contents (Elt Ideal)) (x2 : (⟨S17, .f32⟩ : BufTy).Contents (Elt Ideal))
    (x3 : (⟨S512x12, .f32⟩ : BufTy).Contents (Elt Ideal)) (x4 : (⟨S12, .f32⟩ : BufTy).Contents (Elt Ideal)) (x5 : (⟨S512x6, .f32⟩ : BufTy).Contents (Elt Ideal)) (x6 : (⟨S6, .f32⟩ : BufTy).Contents (Elt Ideal))
    (x7 : (⟨S512x8, .f32⟩ : BufTy).Contents (Elt Ideal)) (x8 : (⟨S8, .f32⟩ : BufTy).Contents (Elt Ideal)) (x9 : (⟨S131072, .i32⟩ : BufTy).Contents (Elt Ideal)) :
    val_main_v32 (F := Ideal) x0 x1 x2 x3 x4 x5 x6 x7 x8 x9 = scores x0 (catW x1 x3 x5 x7) (catB x2 x4 x6 x8) colHead x9 := by
  funext i
  obtain ⟨n, j, rfl⟩ : ∃ (n : Fin 131072) (j : Fin 43), i = ix2 n j := ⟨i 0, i 1, eq_ix2 i⟩
  show catO (val_main_v7 (F := Ideal) x0 x1 x2 x9) (val_main_v15 (F := Ideal) x0 x3 x4 x9) (val_main_v23 (F := Ideal) x0 x5 x6 x9)
      (val_main_v31 (F := Ideal) x0 x7 x8 x9) (ix2 n j) = entry x0 (catW x1 x3 x5 x7) (catB x2 x4 x6 x8) colHead x9 n j
  have hj := j.isLt
  unfold entry colHead
  by_cases h17 : j.val < 17
  · rw [catO_head0 _ _ _ _ n j (by omega), head0_entry, catB_head0 x2 x4 x6 x8 j (by omega), if_pos h17]
    simp only [fun k => catW_head0 x1 x3 x5 x7 k j (by omega)]
  by_cases h29 : j.val < 29
  · rw [catO_head1 _ _ _ _ n j (by omega) (by omega), head1_entry, catB_head1 x2 x4 x6 x8 j (by omega) (by omega), if_neg h17, if_pos h29]
    simp only [fun k => catW_head1 x1 x3 x5 x7 k j (by omega) (by omega)]
  by_cases h35 : j.val < 35
  · rw [catO_head2 _ _ _ _ n j (by omega) (by omega), head2_entry, catB_head2 x2 x4 x6 x8 j (by omega) (by omega), if_neg h17, if_neg h29, if_pos h35]
    simp only [fun k => catW_head2 x1 x3 x5 x7 k j (by omega) (by omega)]
  · rw [catO_head3 _ _ _ _ n j (by omega) (by omega), head3_entry, catB_head3 x2 x4 x6 x8 j (by omega) (by omega), if_neg h17, if_neg h29, if_neg h35]
    simp only [fun k => catW_head3 x1 x3 x5 x7 k j (by omega) (by omega)]

end Cert.ReferenceIdeal.RefValue

end
-- ==== Proof.lean ====
/-
  Four label-routed linear classifiers: the kernel against the reference, on the extended reals.

  Both programs compute, for a row n with label `mask n` and a column j belonging to head h(j),

      out[n, j] = Σ_k x[n, k] · W_{h(j)}[k, j'] + b_{h(j)}[j']   if mask n = h(j),      0 otherwise

  (j' the column's place inside its head). The reference does it head by head: one product and one masked copy per
  head, the four results laid side by side. The kernel lays the four weight matrices side by side first, pads them
  to 128 columns, and for each block of 4096 rows forms one product, adds the laid-out biases, compares the rows'
  labels with a table of the columns' heads, and stores the first 43 columns. A column of the laid-out weights is a
  column of its head's weights, so the two sums have the same terms and the two comparisons test the same equation:
  no law of arithmetic is needed beyond reading each array at an index, and no finiteness of the inputs.

  Each program also runs to the end, faults nowhere and leaves its arguments as they were: the kernel because its
  body only loads whole staging buffers and stores one block that covers its output buffer, and no host operation
  writes an argument; the reference because it is a straight line of host operations. The kernel's program as printed
  and its reading on the extended reals are the same text, so nothing is owed for the passage between them.
-/
import proofs.«176729_j18090402250892_2_alg».proof.Defs
import proofs.«176729_j18090402250892_2_alg».proof.Proof.Gen.Kernel
import proofs.«176729_j18090402250892_2_alg».proof.Proof.Gen.KernelIdeal
import proofs.«176729_j18090402250892_2_alg».proof.Proof.Gen.ReferenceIdeal
import proofs.«176729_j18090402250892_2_alg».proof.Proof.Gen.Pre_finite_inputs
import proofs.«176729_j18090402250892_2_alg».proof.Proof.Gen.ReferenceIdeal.Run
import proofs.«176729_j18090402250892_2_alg».proof.Proof.Gen.ReferenceIdeal.Read
import proofs.«176729_j18090402250892_2_alg».proof.Proof.KernelFrame
import proofs.«176729_j18090402250892_2_alg».proof.Proof.KernelIdealFrame
import proofs.«176729_j18090402250892_2_alg».proof.Proof.KernelIdealValue
import proofs.«176729_j18090402250892_2_alg».proof.Proof.RefValue

noncomputable section

namespace Cert.Proof

open Idealize.ShloMosaic Idealize.SL.Sem

theorem frame_kernel : Cert.frame_Kernel := fun m ρ _ => Cert.Kernel.Frame.frame m ρ

theorem frame_kernelIdeal : Cert.frame_KernelIdeal := fun m ρ _ => Cert.KernelIdeal.Frame.frame m ρ

/-- The reference's run with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the routed classifiers' function of the
    arguments in their result arrays. -/
theorem algebraic : Cert.algebraic_KernelIdeal_ReferenceIdeal := by
  intro m ρ m' ρ' _ hagree
  refine ⟨_, Cert.KernelIdeal.OutValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v32_eq, Cert.ReferenceIdeal.RefValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
